-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x3 : Shape := ⟨3, ![4, 8192, 3]⟩
abbrev S_ : Shape := ⟨0, ![]⟩

class Facts : Prop where
  bcast_S_S4x8192x3 : S_.BroadcastsInDim S4x8192x3 (![] : Fin 0 → Fin S4x8192x3.rank)
  reducesTo_S4x8192x3_S_d0_1_2 : S4x8192x3.ReducesTo [0, 1, 2] S_
  h_S_ : 0 < S_.numel

variable [Facts]

def fn {F : FTy → Type} [FloatOps F] (main_arg0 : FVec F S4x8192x3 .f32) (main_arg1 : FVec F S4x8192x3 .f32) : IVec S_ 1 :=
  let main_v0 : FVec F S4x8192x3 .f32 := Host.absf main_arg0
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_c : IVec S_ 1 := constantI S_ 1 1#1
  let main_v3 : IVec S_ 1 := (fun x v => Host.reduce IntOp.andi x v reducesTo_S4x8192x3_S_d0_1_2 h_S_) main_v2 main_c
  let main_v4 : FVec F S4x8192x3 .f32 := Host.absf main_arg1
  let main_cst_0 : FVec F S_ .f32 := constant S_ .f32 0x7F800000#32
  let main_v5 : FVec F S4x8192x3 .f32 := broadcastInDim S4x8192x3 ![] bcast_S_S4x8192x3 main_cst_0
  let main_v6 : IVec S4x8192x3 1 := cmpf .olt main_v4 main_v5
  let main_c_1 : IVec S_ 1 := constantI S_ 1 1#1
  let main_v7 : IVec S_ 1 := (fun x v => Host.reduce IntOp.andi x v reducesTo_S4x8192x3_S_d0_1_2 h_S_) main_v6 main_c_1
  let main_v8 : IVec S_ 1 := andi main_v3 main_v7
  main_v8
-- ==== Kernel.lean ====
abbrev S4x8192x3 : Shape := ⟨3, ![4, 8192, 3]⟩
abbrev S4x8192x1 : Shape := ⟨3, ![4, 8192, 1]⟩
abbrev S4x8192 : Shape := ⟨2, ![4, 8192]⟩
abbrev S_ : Shape := ⟨0, ![]⟩
abbrev S4 : Shape := ⟨1, ![4]⟩
abbrev S4x256 : Shape := ⟨2, ![4, 256]⟩
abbrev S4x512 : Shape := ⟨2, ![4, 512]⟩
abbrev S4x256x1 : Shape := ⟨3, ![4, 256, 1]⟩
abbrev S4x1x512 : Shape := ⟨3, ![4, 1, 512]⟩
abbrev S4x256x512 : Shape := ⟨3, ![4, 256, 512]⟩

abbrev nBuf : Space → Nat
  | .hbm => 21
  | .vmem => 15
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x1, .f32⟩
  | .hbm, ⟨3, _⟩ => ⟨S4x8192, .f32⟩
  | .hbm, ⟨4, _⟩ => ⟨S4x8192x1, .f32⟩
  | .hbm, ⟨5, _⟩ => ⟨S4x8192, .f32⟩
  | .hbm, ⟨6, _⟩ => ⟨S4x8192x1, .f32⟩
  | .hbm, ⟨7, _⟩ => ⟨S4x8192, .f32⟩
  | .hbm, ⟨8, _⟩ => ⟨S4x8192x1, .f32⟩
  | .hbm, ⟨9, _⟩ => ⟨S4x8192, .f32⟩
  | .hbm, ⟨10, _⟩ => ⟨S4x8192x1, .f32⟩
  | .hbm, ⟨11, _⟩ => ⟨S4x8192, .f32⟩
  | .hbm, ⟨12, _⟩ => ⟨S4x8192x1, .f32⟩
  | .hbm, ⟨13, _⟩ => ⟨S4x8192, .f32⟩
  | .hbm, ⟨14, _⟩ => ⟨S4x8192, .f32⟩
  | .hbm, ⟨15, _⟩ => ⟨S_, .f32⟩
  | .hbm, ⟨16, _⟩ => ⟨S4, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .local _ .vmem, ⟨0, _⟩ => ⟨S4x256, .f32⟩
  | .local _ .vmem, ⟨1, _⟩ => ⟨S4x256, .f32⟩
  | .local _ .vmem, ⟨2, _⟩ => ⟨S4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x512, .f32⟩
  | .local _ .vmem, ⟨7, _⟩ => ⟨S4x512, .f32⟩
  | .local _ .vmem, ⟨8, _⟩ => ⟨S4x512, .f32⟩
  | .local _ .vmem, ⟨9, _⟩ => ⟨S4x512, .f32⟩
  | .local _ .vmem, ⟨10, _⟩ => ⟨S4x512, .f32⟩
  | .local _ .vmem, ⟨11, _⟩ => ⟨S4x512, .f32⟩
  | .local _ .vmem, ⟨12, _⟩ => ⟨S4x256, .f32⟩
  | .local _ .vmem, ⟨13, _⟩ => ⟨S4x256, .f32⟩
  | .local _ .vmem, ⟨14, _⟩ => ⟨S4x256, .f32⟩
  | _, _ => ⟨S4x8192x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_v3 : Ref sig .tc := ⟨.hbm, 5, rfl⟩
abbrev main_call0_v4 : Ref sig .tc := ⟨.hbm, 6, rfl⟩
abbrev main_call0_v5 : Ref sig .tc := ⟨.hbm, 7, rfl⟩
abbrev main_call0_v6 : Ref sig .tc := ⟨.hbm, 8, rfl⟩
abbrev main_call0_v7 : Ref sig .tc := ⟨.hbm, 9, rfl⟩
abbrev main_call0_v8 : Ref sig .tc := ⟨.hbm, 10, rfl⟩
abbrev main_call0_v9 : Ref sig .tc := ⟨.hbm, 11, rfl⟩
abbrev main_call0_v10 : Ref sig .tc := ⟨.hbm, 12, rfl⟩
abbrev main_call0_v11 : Ref sig .tc := ⟨.hbm, 13, rfl⟩
abbrev main_call0_v12 : Ref sig .tc := ⟨.hbm, 14, rfl⟩
abbrev main_call0_cst : Ref sig .tc := ⟨.hbm, 15, rfl⟩
abbrev main_call0_v13 : Ref sig .tc := ⟨.hbm, 16, rfl⟩
abbrev main_call0_cst_0 : Ref sig .tc := ⟨.hbm, 17, rfl⟩
abbrev main_call0_v14 : Ref sig .tc := ⟨.hbm, 18, rfl⟩
abbrev main_call0_cst_1 : Ref sig .tc := ⟨.hbm, 19, rfl⟩
abbrev main_v0 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 16], ![false, false]⟩

def k0_cond2 (i : grid0.Coords) : BitVec 1 :=
  let arg1 : BitVec 32 := BitVec.ofNat 32 (i 1).val
  let c15_i32 : BitVec 32 := 15#32
  let v41 : BitVec 1 := Scalar.cmpi .eq arg1 c15_i32
  let v42 : BitVec 32 := Scalar.extui v41
  let c0_i32_16 : BitVec 32 := 0#32
  let v43 : BitVec 1 := Scalar.cmpi .ne v42 c0_i32_16
  v43

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S4x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S4x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S4x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  slices_S4x8192x3_S4x8192x1_0_0_0 : S4x8192x3.Slices ![0, 0, 0] S4x8192x1
  shapeCasts_S4x8192x1_S4x8192 : S4x8192x1.ShapeCasts S4x8192
  slices_S4x8192x3_S4x8192x1_0_0_1 : S4x8192x3.Slices ![0, 0, 1] S4x8192x1
  slices_S4x8192x3_S4x8192x1_0_0_2 : S4x8192x3.Slices ![0, 0, 2] S4x8192x1
  reducesTo_S4x8192_S4_d1 : S4x8192.ReducesTo [1] S4
  h_S_ : 0 < S_.numel
  reducesTo_S4_S_d0 : S4.ReducesTo [0] S_
  inb_S4x256_S4x256_0_0 : ∀ a, (![0, 0] : Fin 2 → Nat) a + S4x256.size a ≤ S4x256.size a
  h_S4x256 : 0 < S4x256.numel
  shapeCasts_S4x256_S4x256 : S4x256.ShapeCasts S4x256
  inb_S4x512_S4x512_0_0 : ∀ a, (![0, 0] : Fin 2 → Nat) a + S4x512.size a ≤ S4x512.size a
  h_S4x512 : 0 < S4x512.numel
  shapeCasts_S4x512_S4x512 : S4x512.ShapeCasts S4x512
  shapeCasts_S4x256_S4x256x1 : S4x256.ShapeCasts S4x256x1
  shapeCasts_S4x512_S4x1x512 : S4x512.ShapeCasts S4x1x512
  broadcasts_S4x256x1_S4x256x512 : S4x256x1.Broadcasts S4x256x512
  broadcasts_S4x1x512_S4x256x512 : S4x1x512.Broadcasts S4x256x512
  reduces_S4x256x512_S4x256 : S4x256x512.Reduces [2] S4x256
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x256.size a ≤ S4x8192.size a
  hwx0_0 : ∀ i : grid0.Coords, EltTy.bits .f32 = 32 ∨ (Rect.block (s := S4x8192) S4x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4x256.size a ≤ S4x8192.size a
  hwx0_1 : ∀ i : grid0.Coords, EltTy.bits .f32 = 32 ∨ (Rect.block (s := S4x8192) S4x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x256.size a ≤ S4x8192.size a
  hwx0_2 : ∀ i : grid0.Coords, EltTy.bits .f32 = 32 ∨ (Rect.block (s := S4x8192) S4x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4x512.size a ≤ S4x8192.size a
  hwx0_3 : ∀ i : grid0.Coords, EltTy.bits .f32 = 32 ∨ (Rect.block (s := S4x8192) S4x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S4x512.size a ≤ S4x8192.size a
  hwx0_4 : ∀ i : grid0.Coords, EltTy.bits .f32 = 32 ∨ (Rect.block (s := S4x8192) S4x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x512.size a ≤ S4x8192.size a
  hwx0_5 : ∀ i : grid0.Coords, EltTy.bits .f32 = 32 ∨ (Rect.block (s := S4x8192) S4x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4x256.size a ≤ S4x8192.size a
  hwx0_6 : ∀ i : grid0.Coords, EltTy.bits .f32 = 32 ∨ (Rect.block (s := S4x8192) S4x256.size (cc0_transform_6 i) (hinb0_6 i)).WholeWords (EltTy.packing .f32)

variable [Facts₀]

abbrev win0_0 : Pipeline.Window sig grid0 :=
  Pipeline.Window.ofSpec (Memref.whole main_call0_v1) S4x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v3) S4x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v5) S4x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_call0_v7) S4x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_call0_v9) S4x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_call0_v11) S4x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_call0_v12) S4x256.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4x8192x3 : Shape := ⟨3, ![4, 8192, 3]⟩
abbrev S_ : Shape := ⟨0, ![]⟩
abbrev S4x8192 : Shape := ⟨2, ![4, 8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S4 : Shape := ⟨1, ![4]⟩

abbrev nBuf : Space → Nat
  | .hbm => 29
  | .vmem => 0
  | .smem => 0
  | _ => 0

abbrev bufTy : (tb : Table) → Fin (tcTables nBuf tb) → BufTy
  | .hbm, ⟨0, _⟩ => ⟨S4x8192x3, .f32⟩
  | .hbm, ⟨1, _⟩ => ⟨S4x8192x3, .f32⟩
  | .hbm, ⟨2, _⟩ => ⟨S4x8192x3, .f32⟩
  | .hbm, ⟨3, _⟩ => ⟨S_, .f32⟩
  | .hbm, ⟨4, _⟩ => ⟨S4x8192, .f32⟩
  | .hbm, ⟨5, _⟩ => ⟨S4x8192x3, .f32⟩
  | .hbm, ⟨6, _⟩ => ⟨S_, .f32⟩
  | .hbm, ⟨7, _⟩ => ⟨S4x8192, .f32⟩
  | .hbm, ⟨8, _⟩ => ⟨S4x8192x8192, .f32⟩
  | .hbm, ⟨9, _⟩ => ⟨S4x8192x1, .f32⟩
  | .hbm, ⟨10, _⟩ => ⟨S4x1x8192, .f32⟩
  | .hbm, ⟨11, _⟩ => ⟨S4x8192x8192, .f32⟩
  | .hbm, ⟨12, _⟩ => ⟨S4x8192x8192, .f32⟩
  | .hbm, ⟨13, _⟩ => ⟨S4x8192x8192, .f32⟩
  | .hbm, ⟨14, _⟩ => ⟨S_, .f32⟩
  | .hbm, ⟨15, _⟩ => ⟨S4x8192x8192, .f32⟩
  | .hbm, ⟨16, _⟩ => ⟨S4x8192x8192, .f32⟩
  | .hbm, ⟨17, _⟩ => ⟨S4x8192x8192, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S4x8192, .f32⟩
  | .hbm, ⟨23, _⟩ => ⟨S_, .f32⟩
  | .hbm, ⟨24, _⟩ => ⟨S4, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S4x8192x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_cst_3 : Ref sig .tc := ⟨.hbm, 20, rfl⟩
abbrev main_v14 : Ref sig .tc := ⟨.hbm, 21, rfl⟩
abbrev main_v15 : Ref sig .tc := ⟨.hbm, 22, rfl⟩
abbrev main_cst_4 : Ref sig .tc := ⟨.hbm, 23, rfl⟩
abbrev main_v16 : Ref sig .tc := ⟨.hbm, 24, rfl⟩
abbrev main_cst_5 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩

abbrev nD : Nat := 1
abbrev τ : Topo := Topo.v7x

variable {F : FTy → Type} [FloatOps F]

class Facts₀ : Prop where
  reducesTo_S4x8192x3_S4x8192_d2 : S4x8192x3.ReducesTo [2] S4x8192
  h_S_ : 0 < S_.numel
  bcast_S4x8192_S4x8192x1_0_1 : S4x8192.BroadcastsInDim S4x8192x1 (![0, 1] : Fin 2 → Fin S4x8192x1.rank)
  bcast_S4x8192_S4x1x8192_0_2 : S4x8192.BroadcastsInDim S4x1x8192 (![0, 2] : Fin 2 → Fin S4x1x8192.rank)
  bcast_S4x8192x1_S4x8192x8192_0_1_2 : S4x8192x1.BroadcastsInDim S4x8192x8192 (![0, 1, 2] : Fin 3 → Fin S4x8192x8192.rank)
  bcast_S4x1x8192_S4x8192x8192_0_1_2 : S4x1x8192.BroadcastsInDim S4x8192x8192 (![0, 1, 2] : Fin 3 → Fin S4x8192x8192.rank)
  bcast_S_S4x8192x8192 : S_.BroadcastsInDim S4x8192x8192 (![] : Fin 0 → Fin S4x8192x8192.rank)
  reducesTo_S4x8192x8192_S4x8192_d2 : S4x8192x8192.ReducesTo [2] S4x8192
  bcast_S_S4x8192 : S_.BroadcastsInDim S4x8192 (![] : Fin 0 → Fin S4x8192.rank)
  reducesTo_S4x8192_S4_d1 : S4x8192.ReducesTo [1] S4
  reducesTo_S4_S_d0 : S4.ReducesTo [0] S_
  dot_S4x8192x3_S4x8192x3_S4x8192x8192_2_2_1_1_0_0_wf : DotDims.WF S4x8192x3 S4x8192x3 S4x8192x8192 [2] [2] [1] [1] [0] [0]

variable [Facts₀]

def dot_S4x8192x3_S4x8192x3_S4x8192x8192_2_2_1_1_0_0 : DotDims S4x8192x3 S4x8192x3 S4x8192x8192 where
  lhsContracting := [2]
  rhsContracting := [2]
  lhsNonContracting := [1]
  rhsNonContracting := [1]
  lhsBatch := [0]
  rhsBatch := [0]
  wf := dot_S4x8192x3_S4x8192x3_S4x8192x8192_2_2_1_1_0_0_wf

class Facts : Prop extends Facts₀ where

variable [Facts]
-- ==== Proof.LibSqDist.lean ====
/-
  The expansion of a squared distance, stated for two rows of numbers indexed by any finite type.

  For real rows `x` and `w`,
      Σ_d (w d − x d)² = (Σ_d x d² + Σ_d w d²) − 2 · Σ_d x d · w d,
  by expanding each square and collecting the three sums. On the extended reals the same equation holds for rows
  whose entries are real numbers: every sum and product of reals is again a real, so both sides are the coercion of
  the real equation. (It fails at infinite entries: a difference of infinities on the left is not the difference of
  infinite sums on the right.) The left side carries the reduction's initial value 0 in front, as a sum written
  `0 + Σ` does. Last, the two float words that occur next to the sums: 0x00000000 is the number 0 and 0x40000000 the
  number 2.
-/
import Idealize.ShloMosaic.PureOps.Ideal
import Idealize.ShloMosaic.PureOps.Ideal.Laws

noncomputable section

open scoped BigOperators

namespace Cert.SqDist

open Idealize.ShloMosaic

variable {ι : Type*} [Fintype ι]

/-- Over the reals: the sum of the squared differences is the two sums of squares minus twice the inner product. -/
theorem real_sum_sq_sub (x w : ι → ℝ) :
    ∑ d, (w d - x d) * (w d - x d) = (∑ d, x d * x d + ∑ d, w d * w d) - 2 * ∑ d, x d * w d := by
  rw [Finset.mul_sum, ← Finset.sum_add_distrib, ← Finset.sum_sub_distrib]
  exact Finset.sum_congr rfl fun d _ => by ring

/-- The coercion of a finite sum of reals is the sum of the coercions. -/
theorem coe_sum {κ : Type*} (s : Finset κ) (f : κ → ℝ) : ((∑ d ∈ s, f d : ℝ) : EReal) = ∑ d ∈ s, (f d : EReal) := by
  classical
  induction s using Finset.induction_on with
  | empty => simp
  | insert a s ha ih => rw [Finset.sum_insert ha, Finset.sum_insert ha, EReal.coe_add, ih]

/-- The squared distance of two rows as the reference computes it: the initial value `z` plus the sum of the squared
    differences. -/
def direct (z : EReal) (x w : ι → EReal) : EReal := z + ∑ d, (w d - x d) * (w d - x d)

/-- The squared distance of two rows as the kernel computes it: the two sums of squares, minus `c` times the inner
    product. -/
def expanded (c : EReal) (x w : ι → EReal) : EReal := (∑ d, x d * x d + ∑ d, w d * w d) - c * ∑ d, x d * w d

/-- On rows of real numbers, with initial value 0 and factor 2, the two computations agree. -/
theorem expanded_eq_direct (x w : ι → EReal) (hx : ∀ d, ∃ r : ℝ, x d = (r : EReal)) (hw : ∀ d, ∃ r : ℝ, w d = (r : EReal)) :
    expanded ((2 : ℝ) : EReal) x w = direct 0 x w := by
  choose xr hxr using hx
  choose wr hwr using hw
  obtain rfl : x = fun d => (xr d : EReal) := funext hxr
  obtain rfl : w = fun d => (wr d : EReal) := funext hwr
  unfold expanded direct
  simp only [← EReal.coe_mul, ← EReal.coe_sub, ← coe_sum, ← EReal.coe_add, zero_add]
  exact congrArg _ (real_sum_sq_sub xr wr).symm

/-- The float word of `2.0` is the real number 2. -/
theorem ofBits_two : Ideal.ofBits .f32 0x40000000#32 = ((2 : ℝ) : EReal) := by
  simp [Ideal.ofBits, Ideal.ieee, -EReal.coe_mul]; norm_num

/-- The float word of `0.0` is 0. -/
theorem ofBits_zero : Ideal.ofBits .f32 0x00000000#32 = 0 := Ideal.ofBits_zero_f32

end Cert.SqDist

end
-- ==== Proof.Spec.lean ====
/-
  The nearest-neighbour squared distance between two clouds of 8192 points in three dimensions, for four batches,
  and the average of its sums.

  For clouds `x`, `y` (entry (n, p, d): batch n, point p, coordinate d) the squared distance of point p of `x` and
  point q of `y` is
      dist n p q = (x₀ − y₀)² + (x₁ − y₁)² + (x₂ − y₂)²,
  and the result is  (Σ_n Σ_p max (min_q dist n p q) 0) / 4.  The same distance written through the inner product is
      (Σ_d x_d² + Σ_d y_d²) − 2 · Σ_d x_d · y_d,
  equal to the first form when every entry is a real number (on the extended reals the expansion of a square fails at
  infinite entries, so the hypothesis is needed).

  A minimum over the 8192 points of `y` taken 512 points at a time: a running value `s` is "the minimum of `f` over the
  indices below b" when, for every z, z ≤ s exactly when z ≤ f q for all q < b. The top element is that minimum for b = 0;
  the minimum of such an `s` with the minimum of the next 512 values is that minimum for b + 512; and for b = 8192 it is
  the minimum over all indices.
-/
import Idealize.ShloMosaic.PureOps.Ideal
import Idealize.ShloMosaic.PureOps.Ideal.Laws
import Idealize.ShloMosaic.Lib.ValueIdx
import proofs.«125190_j11261404250604_2_alg».proof.Proof.LibSqDist

noncomputable section

open scoped BigOperators

namespace Cert.Chamfer

open Idealize.ShloMosaic Idealize.ShloMosaic.ValueIdx

/-- A cloud: four batches of 8192 points with three coordinates each. -/
abbrev Cloud : Type := (⟨3, ![4, 8192, 3]⟩ : Shape).Idx → EReal

/-- One value per batch and point. -/
abbrev PerPoint : Type := (⟨2, ![4, 8192]⟩ : Shape).Idx → EReal

/-- The squared distance of point `p` of `x` and point `q` of `y` in batch `n`, coordinate by coordinate. -/
def dist (x y : Cloud) (n : Fin 4) (p q : Fin 8192) : EReal :=
  (x (ix3 n p (0 : Fin 3)) - y (ix3 n q (0 : Fin 3))) * (x (ix3 n p (0 : Fin 3)) - y (ix3 n q (0 : Fin 3)))
    + (x (ix3 n p (1 : Fin 3)) - y (ix3 n q (1 : Fin 3))) * (x (ix3 n p (1 : Fin 3)) - y (ix3 n q (1 : Fin 3)))
    + (x (ix3 n p (2 : Fin 3)) - y (ix3 n q (2 : Fin 3))) * (x (ix3 n p (2 : Fin 3)) - y (ix3 n q (2 : Fin 3)))

/-- The same distance through the squared norms and the inner product, each sum started from `z`. -/
def distExpanded (z two : EReal) (x y : Cloud) (n : Fin 4) (p q : Fin 8192) : EReal :=
  ((z + ∑ k : Fin 3, x (ix3 n p k) * x (ix3 n p k)) + (z + ∑ k : Fin 3, y (ix3 n q k) * y (ix3 n q k)))
    - two * ∑ k : Fin 3, x (ix3 n p k) * y (ix3 n q k)

/-- On clouds of real numbers the two forms agree. -/
theorem distExpanded_eq_dist (x y : Cloud) (hx : ∀ i, ∃ r : ℝ, x i = (r : EReal)) (hy : ∀ i, ∃ r : ℝ, y i = (r : EReal))
    (n : Fin 4) (p q : Fin 8192) : distExpanded 0 ((2 : ℝ) : EReal) x y n p q = dist x y n p q := by
  choose xr hxr using hx
  choose yr hyr using hy
  obtain rfl : x = fun i => (xr i : EReal) := funext hxr
  obtain rfl : y = fun i => (yr i : EReal) := funext hyr
  unfold distExpanded dist
  simp only [Fin.sum_univ_three, zero_add, ← EReal.coe_mul, ← EReal.coe_add, ← EReal.coe_sub]
  exact congrArg _ (by ring)

/-- The nearest squared distance from each point of `x` to the cloud `y`, clipped below at 0. -/
def nn (x y : Cloud) : PerPoint :=
  fun i => max (Finset.univ.fold min ⊤ (fun q : Fin 8192 => dist x y (i 0) (i 1) q)) 0

/-- The sum over the points, then over the batches, each started from the word of 0.0, divided by the word of 4.0. -/
def tail (h1 : (⟨2, ![4, 8192]⟩ : Shape).ReducesTo [1] ⟨1, ![4]⟩) (h0 : 0 < (⟨0, ![]⟩ : Shape).numel)
    (h2 : (⟨1, ![4]⟩ : Shape).ReducesTo [0] ⟨0, ![]⟩) (v : FVec Ideal ⟨2, ![4, 8192]⟩ .f32) : FVec Ideal ⟨0, ![]⟩ .f32 :=
  Host.divf (Host.reduceAdd (Host.reduceAdd v (constant (F := Ideal) ⟨0, ![]⟩ .f32 0x00000000#32) h1 h0)
    (constant (F := Ideal) ⟨0, ![]⟩ .f32 0x00000000#32) h2 h0) (constant (F := Ideal) ⟨0, ![]⟩ .f32 0x40800000#32)

/-! ## A minimum taken 512 indices at a time -/

/-- Below a minimum over a finite family started from the top: below every member. -/
theorem le_foldMin_iff {ι : Type*} [Fintype ι] (g : ι → EReal) (z : EReal) :
    z ≤ Finset.univ.fold min ⊤ g ↔ ∀ k, z ≤ g k := by
  rw [Finset.le_fold_min]
  simp

/-- The word of +∞ is the top of the extended reals. -/
theorem ofBits_posInf_f32 : Ideal.ofBits .f32 0x7F800000#32 = ⊤ := by simp [Ideal.ofBits, Ideal.ieee]

/-- `s` is the minimum of `f` over the indices below `b`. -/
def IsMinBelow (f : Fin 8192 → EReal) (b : ℕ) (s : EReal) : Prop :=
  ∀ z : EReal, z ≤ s ↔ ∀ q : Fin 8192, q.val < b → z ≤ f q

/-- Over no index the minimum is the top. -/
theorem isMinBelow_zero (f : Fin 8192 → EReal) : IsMinBelow f 0 ⊤ :=
  fun _ => ⟨fun _ q hq => absurd hq (Nat.not_lt_zero _), fun _ => le_top⟩

/-- One more group of 512: the minimum below `512 j` met with the minimum of the next 512 values is the minimum below
    `512 (j + 1)`. -/
theorem IsMinBelow.step {f : Fin 8192 → EReal} {j : ℕ} (hj : j < 16) {s : EReal} (hs : IsMinBelow f (512 * j) s)
    (g : Fin 512 → EReal) (hg : ∀ k : Fin 512, g k = f ⟨512 * j + k.val, by have := k.isLt; omega⟩) :
    IsMinBelow f (512 * (j + 1)) (min s (Finset.univ.fold min ⊤ g)) := by
  intro z
  rw [le_min_iff, hs z, le_foldMin_iff]
  constructor
  · rintro ⟨h1, h2⟩ q hq
    by_cases h : q.val < 512 * j
    · exact h1 q h
    · have hk := h2 ⟨q.val - 512 * j, by omega⟩
      rw [hg] at hk
      have e : (⟨512 * j + (q.val - 512 * j), by omega⟩ : Fin 8192) = q := Fin.ext (by simp only; omega)
      rw [e] at hk
      exact hk
  · intro h
    exact ⟨fun q hq => h q (by omega), fun k => by rw [hg]; exact h _ (by have := k.isLt; simp only; omega)⟩

/-- Below 8192 is every index: the minimum over all of them. -/
theorem IsMinBelow.eq_fold {f : Fin 8192 → EReal} {s : EReal} (hs : IsMinBelow f 8192 s) :
    s = Finset.univ.fold min ⊤ f :=
  eq_of_forall_le_iff fun z => by
    rw [hs z, le_foldMin_iff]
    exact ⟨fun h q => h q q.isLt, fun h q _ => h q⟩

end Cert.Chamfer

end
-- ==== Proof.Finite.lean ====
import proofs.«125190_j11261404250604_2_alg».proof.Pre_finite_inputs
import proofs.«125190_j11261404250604_2_alg».proof.Proof.Gen.Pre_finite_inputs
import Idealize.ShloMosaic.PureOps.Ideal
import Idealize.ShloMosaic.PureOps.Ideal.Laws
import Idealize.ShloMosaic.Lib.ReduceAll
import Idealize.ShloMosaic.Lib.ValueIdx

/-!
# From "every float input is finite" to "every entry is a real number"

The precondition compares the absolute value of every entry of both argument arrays with `+∞`
(strictly below), and takes the conjunction over all entries. Over the extended reals the
absolute value of `x` is `max x (-x)`; it is strictly below `⊤` exactly when `x` is neither
`⊤` nor `⊥`, that is, when `x` is the coercion of a real number.
-/

noncomputable section

namespace Cert.Chamfer.Finite

open Idealize.ShloMosaic

/-- The result shape of a reduction over every axis has exactly one index. -/
instance : Subsingleton Cert.Pre_finite_inputs.S_.Idx := ⟨fun a b => funext fun d => d.elim0⟩

/-- An extended real whose absolute value `max x (-x)` is strictly below `⊤` is a real number. -/
theorem real_of_abs_lt_top (x : EReal) (h : max x (-x) < ⊤) : ∃ r : ℝ, x = (r : EReal) := by
  induction x using EReal.rec with
  | bot => simp at h
  | coe r => exact ⟨r, rfl⟩
  | top => simp at h

/-- The word `0x7F800000` denotes `+∞`. -/
theorem ofBits_inf : Ideal.ofBits .f32 0x7F800000#32 = ⊤ := by simp [Ideal.ofBits, Ideal.ieee]

/-- One element of the comparison: `|x| < +∞` coming out true makes `x` a real number. -/
theorem real_of_cmp (x : Ideal .f32)
    (h : FloatOps.cmpf (F := Ideal) .olt (FloatOps.hostAbsf x) (FloatOps.ofBits .f32 0x7F800000#32) = 1#1) :
    ∃ r : ℝ, x = (r : EReal) := by
  apply real_of_abs_lt_top
  have h' : Ideal.cmp .olt (max x (-x)) (Ideal.ofBits .f32 0x7F800000#32) = 1#1 := h
  rw [ofBits_inf] at h'
  by_contra hn
  simp [Ideal.cmp, hn] at h'

theorem real_of_pre (a b : FVec Ideal Cert.Pre_finite_inputs.S4x8192x3 .f32)
    (h : Cert.Pre_finite_inputs.fn (F := Ideal) a b = fun _ => 1#1) :
    (∀ i, ∃ r : ℝ, a i = (r : EReal)) ∧ (∀ i, ∃ r : ℝ, b i = (r : EReal)) := by
  have h0 := congrFun h ValueIdx.ix0
  dsimp only [Cert.Pre_finite_inputs.fn] at h0
  obtain ⟨ha, hb⟩ := IntOp.andi_eq_one.1 h0
  refine ⟨fun i => ?_, fun i => ?_⟩
  · exact real_of_cmp (a i) (Host.reduce_andi_all _ _ _ _ _ ha i)
  · exact real_of_cmp (b i) (Host.reduce_andi_all _ _ _ _ _ hb i)

end Cert.Chamfer.Finite

end
-- ==== Proof.RefSide.lean ====
/-
  The reference program's value at one point is the specification's nearest squared distance.

  For each batch n and point p the reference takes the minimum over the 8192 points q of the second cloud of
      (Σ_d x_d² + Σ_d y_d²) − 2 · Σ_d x_d · y_d,
  started from the word of +∞, and then the maximum with the word of 0.0. Each of the three sums is read at its
  index through the layout operations in front of it (a broadcast reads its operand at the index with the
  broadcast axis dropped), the minimum over the last axis is a fold over that axis's coordinates, the two words are
  the top element and 0, and on clouds of real numbers the expanded form is the coordinate-by-coordinate squared
  distance. What follows the per-point value (two sums and a division) is the specification's tail as it stands.
-/
import proofs.«125190_j11261404250604_2_alg».proof.Proof.Gen.ReferenceIdeal.Read
import proofs.«125190_j11261404250604_2_alg».proof.Proof.Spec

noncomputable section

open scoped BigOperators

namespace Cert.Chamfer.RefSide

open Cert.ReferenceIdeal Cert.ReferenceIdeal.Gen Cert.ReferenceIdeal.Read Cert.Chamfer Idealize.ShloMosaic Idealize.ShloMosaic.ValueIdx

/-! ## Indices -/

/-- The sum of squares of the first cloud, read through its two broadcasts at (n, p, q), runs over (n, p, k). -/
theorem idx_sqX (n : Fin 4) (p q : Fin 8192) (k : Fin 3) :
    idx_main_v1 (idx_main_v5 (idx_main_v7 (ix3 n p q))) k = ix3 n p k :=
  funext fun a => Fin.ext (by match a with | ⟨0, _⟩ => rfl | ⟨1, _⟩ => rfl | ⟨2, _⟩ => rfl)

/-- The sum of squares of the second cloud, read through its two broadcasts at (n, p, q), runs over (n, q, k). -/
theorem idx_sqY (n : Fin 4) (p q : Fin 8192) (k : Fin 3) :
    idx_main_v3 (idx_main_v6 (idx_main_v8 (ix3 n p q))) k = ix3 n q k :=
  funext fun a => Fin.ext (by match a with | ⟨0, _⟩ => rfl | ⟨1, _⟩ => rfl | ⟨2, _⟩ => rfl)

/-- The inner product at (n, p, q) reads the first cloud at (n, p, k) … -/
theorem idx_dotL (n : Fin 4) (p q : Fin 8192) (k : Fin 3) : lidx_main_v4 (ix3 n p q) k = ix3 n p k :=
  funext fun a => Fin.ext (by match a with | ⟨0, _⟩ => rfl | ⟨1, _⟩ => rfl | ⟨2, _⟩ => rfl)

/-- … and the second at (n, q, k). -/
theorem idx_dotR (n : Fin 4) (p q : Fin 8192) (k : Fin 3) : ridx_main_v4 (ix3 n p q) k = ix3 n q k :=
  funext fun a => Fin.ext (by match a with | ⟨0, _⟩ => rfl | ⟨1, _⟩ => rfl | ⟨2, _⟩ => rfl)

/-- Dropping the last axis of the 4 × 8192 × 8192 array leaves the 4 × 8192 one. -/
theorem reduces_last : S4x8192x8192.Reduces [2] S4x8192 := by decide

/-- The index (n, p) with q put back on the dropped axis is (n, p, q). -/
theorem lift_ix3 (n : Fin 4) (p : Fin 8192) (q : Fin (S4x8192x8192.size 2)) :
    reduces_last.lift (ix2 n p) q = ix3 n p (⟨q.val, q.isLt⟩ : Fin 8192) := by
  funext c; apply Fin.ext
  match c with
  | ⟨0, _⟩ => rfl
  | ⟨1, _⟩ => rfl
  | ⟨2, _⟩ => rfl

/-! ## The three sums and their combination at (n, p, q) -/

/-- The first cloud's sum of squares, broadcast along q. -/
theorem sqX_apply (x : (⟨S4x8192x3, .f32⟩ : BufTy).Contents (Elt Ideal)) (n : Fin 4) (p q : Fin 8192) :
    val_main_v7 (F := Ideal) x (ix3 n p q) = 0 + ∑ k : Fin 3, x (ix3 n p k) * x (ix3 n p k) := by
  rw [val_main_v7_apply, val_main_v5_apply, val_main_v1_apply, val_main_cst_apply, Ideal.ofBits_def, Cert.SqDist.ofBits_zero]
  refine congrArg (0 + ·) (Finset.sum_congr rfl fun k _ => ?_)
  rw [val_main_v0_apply, Ideal.mulf_def, idx_sqX]

/-- The second cloud's sum of squares, broadcast along p. -/
theorem sqY_apply (y : (⟨S4x8192x3, .f32⟩ : BufTy).Contents (Elt Ideal)) (n : Fin 4) (p q : Fin 8192) :
    val_main_v8 (F := Ideal) y (ix3 n p q) = 0 + ∑ k : Fin 3, y (ix3 n q k) * y (ix3 n q k) := by
  rw [val_main_v8_apply, val_main_v6_apply, val_main_v3_apply, val_main_cst_0_apply, Ideal.ofBits_def, Cert.SqDist.ofBits_zero]
  refine congrArg (0 + ·) (Finset.sum_congr rfl fun k _ => ?_)
  rw [val_main_v2_apply, Ideal.mulf_def, idx_sqY]

/-- Twice the inner product. -/
theorem twoDot_apply (x y : (⟨S4x8192x3, .f32⟩ : BufTy).Contents (Elt Ideal)) (n : Fin 4) (p q : Fin 8192) :
    val_main_v11 (F := Ideal) x y (ix3 n p q) = ((2 : ℝ) : EReal) * ∑ k : Fin 3, x (ix3 n p k) * y (ix3 n q k) := by
  rw [val_main_v11_apply, val_main_v10_apply, val_main_cst_1_apply, val_main_v4_apply, Ideal.mulf_def, Ideal.ofBits_def,
    Cert.SqDist.ofBits_two]
  refine congrArg (((2 : ℝ) : EReal) * ·) (Finset.sum_congr rfl fun k _ => ?_)
  rw [idx_dotL, idx_dotR]

/-- The value under the minimum is the expanded squared distance, hence on real clouds the squared distance. -/
theorem expanded_apply (x y : (⟨S4x8192x3, .f32⟩ : BufTy).Contents (Elt Ideal)) (hx : ∀ i, ∃ r : ℝ, x i = (r : EReal))
    (hy : ∀ i, ∃ r : ℝ, y i = (r : EReal)) (n : Fin 4) (p q : Fin 8192) :
    val_main_v12 (F := Ideal) x y (ix3 n p q) = dist x y n p q := by
  rw [val_main_v12_apply, val_main_v9_apply, Ideal.subf_def, Ideal.addf_def, sqX_apply, sqY_apply, twoDot_apply]
  exact distExpanded_eq_dist x y hx hy n p q

/-! ## The minimum over q, and the clip at 0 -/

/-- The minimum over the last axis started from the word of +∞ is the minimum of the squared distances from the top. -/
theorem min_apply (x y : (⟨S4x8192x3, .f32⟩ : BufTy).Contents (Elt Ideal)) (hx : ∀ i, ∃ r : ℝ, x i = (r : EReal))
    (hy : ∀ i, ∃ r : ℝ, y i = (r : EReal)) (n : Fin 4) (p : Fin 8192) :
    val_main_v13 (F := Ideal) x y (ix2 n p) = Finset.univ.fold min ⊤ (fun q : Fin 8192 => dist x y n p q) := by
  unfold val_main_v13
  rw [Host.reduce_eq_fold_single FloatOps.minimumf _ _ reducesTo_S4x8192x8192_S4x8192_d2 reduces_last h_S_ (ix2 n p),
    val_main_cst_2_apply, Ideal.ofBits_def, ofBits_posInf_f32]
  have hf : (val_main_v12 (F := Ideal) x y ∘ reduces_last.lift (ix2 n p)) = fun q : Fin 8192 => dist x y n p q :=
    funext fun q => (congrArg (val_main_v12 (F := Ideal) x y) (lift_ix3 n p q)).trans (expanded_apply x y hx hy n p q)
  exact congrArg (fun f => Finset.fold min (⊤ : EReal) f (Finset.univ : Finset (Fin 8192))) hf

/-- The reference's per-point value is the specification's. -/
theorem perPoint_eq (x y : (⟨S4x8192x3, .f32⟩ : BufTy).Contents (Elt Ideal)) (hx : ∀ i, ∃ r : ℝ, x i = (r : EReal))
    (hy : ∀ i, ∃ r : ℝ, y i = (r : EReal)) :
    val_main_v15 (F := Ideal) x y = nn x y := by
  funext i
  obtain ⟨n, p, rfl⟩ : ∃ (n : Fin 4) (p : Fin 8192), i = ix2 n p := ⟨i 0, i 1, eq_ix2 i⟩
  rw [val_main_v15_apply, val_main_v14_apply, val_main_cst_3_apply, Ideal.maximumf_def, Ideal.ofBits_def,
    Cert.SqDist.ofBits_zero, min_apply x y hx hy n p]
  rfl

/-- What the reference does after the per-point value is the specification's tail. -/
theorem result_eq (x y : (⟨S4x8192x3, .f32⟩ : BufTy).Contents (Elt Ideal)) :
    val_main_v18 (F := Ideal) x y
      = tail reducesTo_S4x8192_S4_d1 h_S_ reducesTo_S4_S_d0 (val_main_v15 (F := Ideal) x y) := rfl

end Cert.Chamfer.RefSide

end
-- ==== Proof.KPay.lean ====
/-
  The kernel body's arithmetic read at an index, on the extended reals.

  At one grid point the body holds a block of 256 points of the first cloud and a block of 512 points of the second, each as
  three planes (one per coordinate) of shape 4 × 256 and 4 × 512. Every plane of the first is turned into a column
  (4 × 256 × 1) and spread along the last axis, every plane of the second into a row (4 × 1 × 512) and spread along the
  middle axis; the three differences are squared and added, the minimum over the last axis is taken starting from +∞ and
  met with the running minimum. At (n, r) this is
      min (s (n, r)) (min over k < 512 of (x₀(n,r) − y₀(n,k))² + (x₁(n,r) − y₁(n,k))² + (x₂(n,r) − y₂(n,k))²).
  The value written back at the last step is the running minimum clipped below at 0; the value the first step starts from is
  +∞ everywhere.
-/
import proofs.«125190_j11261404250604_2_alg».proof.Proof.Gen.KernelIdeal.Skeleton
import proofs.«125190_j11261404250604_2_alg».proof.Proof.Spec
import Idealize.ShloMosaic.Lib.Pipeline.Value
import Idealize.ShloMosaic.Lib.ValueIdx
import Idealize.ShloMosaic.PureOps.Ideal.Laws

noncomputable section

namespace Cert.Chamfer.Pay

open Cert.KernelIdeal Cert.KernelIdeal.Gen Cert.Chamfer Idealize.ShloMosaic Idealize.ShloMosaic.ValueIdx

/-! ## Layout operations at an index -/

/-- A 4 × 256 plane cast to a column 4 × 256 × 1 reads, at (n, r, u), the plane at (n, r). -/
theorem cast_col (v : S4x256.Idx → EReal) (h : S4x256.ShapeCasts S4x256x1) (n : Fin 4) (r : Fin 256) (u : Fin 1) :
    shapeCast S4x256x1 v h (ix3 n r u) = v (ix2 n r) :=
  shapeCast_apply v h _ _ (by
    have hu : u.val = 0 := by omega
    rw [Shape.rowMajor_val_two, Shape.rowMajor_val_three]
    show n.val * 256 + r.val = (n.val * 256 + r.val) * 1 + u.val
    omega)

/-- A 4 × 512 plane cast to a row 4 × 1 × 512 reads, at (n, u, k), the plane at (n, k). -/
theorem cast_row (v : S4x512.Idx → EReal) (h : S4x512.ShapeCasts S4x1x512) (n : Fin 4) (u : Fin 1) (k : Fin 512) :
    shapeCast S4x1x512 v h (ix3 n u k) = v (ix2 n k) :=
  shapeCast_apply v h _ _ (by
    have hu : u.val = 0 := by omega
    rw [Shape.rowMajor_val_two, Shape.rowMajor_val_three]
    show n.val * 512 + k.val = (n.val * 1 + u.val) * 512 + k.val
    omega)

/-- A column spread along the last axis reads, at (n, r, k), the column at (n, r, 0). -/
theorem spread_col (v : S4x256x1.Idx → EReal) (h : S4x256x1.Broadcasts S4x256x512) (n : Fin 4) (r : Fin 256) (k : Fin 512) :
    broadcastTo S4x256x512 v h (ix3 n r k) = v (ix3 n r (0 : Fin 1)) :=
  broadcastTo_apply v h (ix3 n r k) (ix3 n r (0 : Fin 1)) fun ax =>
    match ax with
    | ⟨0, _⟩ => rfl
    | ⟨1, _⟩ => rfl
    | ⟨2, _⟩ => rfl

/-- A row spread along the middle axis reads, at (n, r, k), the row at (n, 0, k). -/
theorem spread_row (v : S4x1x512.Idx → EReal) (h : S4x1x512.Broadcasts S4x256x512) (n : Fin 4) (r : Fin 256) (k : Fin 512) :
    broadcastTo S4x256x512 v h (ix3 n r k) = v (ix3 n (0 : Fin 1) k) :=
  broadcastTo_apply v h (ix3 n r k) (ix3 n (0 : Fin 1) k) fun ax =>
    match ax with
    | ⟨0, _⟩ => rfl
    | ⟨1, _⟩ => rfl
    | ⟨2, _⟩ => rfl

/-- The index (n, r) of the reduced array with coordinate k put back on the last axis is (n, r, k). -/
theorem lift_last (h : S4x256x512.Reduces [2] S4x256) (n : Fin 4) (r : Fin 256) (k : Fin (S4x256x512.size 2)) :
    h.lift (ix2 n r) k = ix3 n r (⟨k.val, k.isLt⟩ : Fin 512) := by
  funext c; apply Fin.ext
  fin_cases c <;> rfl

/-- The minimum over the last axis started from the word of +∞, at (n, r): the minimum of the 512 entries of that row. -/
theorem min_last (src : FVec Ideal S4x256x512 .f32) (h : S4x256x512.Reduces [2] S4x256) (hφ : FKind.Formats .f32)
    (hacc : (0x7F800000#32 : BitVec 32) = FKind.minimumf.neutral .f32 hφ) (n : Fin 4) (r : Fin 256) :
    multiReduction .minimumf [2] S4x256 src 0x7F800000#32 h hφ hacc (ix2 n r)
      = Finset.univ.fold min ⊤ (fun k : Fin 512 => src (ix3 n r k)) := by
  refine (multiReduction_minimumf_eq_fold src _ h hφ hacc (ix2 n r)).trans ?_
  refine (h.fold_filter_drop_single _ _ src (ix2 n r)).trans ?_
  have hf : (src ∘ h.lift (ix2 n r)) = fun k : Fin 512 => src (ix3 n r k) :=
    funext fun k => congrArg src (lift_last h n r k)
  rw [hf]
  show Finset.univ.fold min (Ideal.ofBits .f32 0x7F800000#32) _ = _
  rw [ofBits_posInf_f32]
  rfl

/-! ## The payloads -/

/-- The squared distance inside a pair of blocks. -/
def blockDist (x0 x1 x2 : S4x256.Idx → EReal) (y0 y1 y2 : S4x512.Idx → EReal) (n : Fin 4) (r : Fin 256) (k : Fin 512) : EReal :=
  (x0 (ix2 n r) - y0 (ix2 n k)) * (x0 (ix2 n r) - y0 (ix2 n k))
    + (x1 (ix2 n r) - y1 (ix2 n k)) * (x1 (ix2 n r) - y1 (ix2 n k))
    + (x2 (ix2 n r) - y2 (ix2 n k)) * (x2 (ix2 n r) - y2 (ix2 n k))

/-- The running minimum after a step: the one before met with the minimum of this pair of blocks' 512 distances. -/
theorem pay4_apply (x0 x1 x2 : Vec Ideal S4x256 .f32) (y0 y1 y2 : Vec Ideal S4x512 .f32) (s : Vec Ideal S4x256 .f32)
    (n : Fin 4) (r : Fin 256) :
    k0_pay4 (F := Ideal) x0 x1 x2 y0 y1 y2 s (ix2 n r)
      = min (s (ix2 n r)) (Finset.univ.fold min ⊤ (fun k : Fin 512 => blockDist x0 x1 x2 y0 y1 y2 n r k)) := by
  unfold k0_pay4
  simp only [shapeCast_self]
  refine (minimumf_apply _ _ _).trans ?_
  refine congrArg (min (s (ix2 n r))) ?_
  refine (min_last _ _ _ _ n r).trans ?_
  refine congrArg (fun f => Finset.univ.fold min ⊤ f) (funext fun k => ?_)
  simp only [addf_apply, mulf_apply, subf_apply, spread_col, spread_row, cast_col, cast_row]
  rfl

/-- The value the first step starts from: +∞ everywhere. -/
theorem pay3_apply (i : S4x256.Idx) : k0_pay3 (F := Ideal) i = ⊤ := by
  unfold k0_pay3
  simp only [shapeCast_self]
  show Ideal.ofBits .f32 0x7F800000#32 = ⊤
  exact ofBits_posInf_f32

/-- The stored running minimum is the computed one. -/
theorem pay1_eq (v : FVec Ideal S4x256 .f32) : k0_pay1 (F := Ideal) v = v := by
  unfold k0_pay1
  exact shapeCast_self _ _

/-- The value written back: the running minimum clipped below at 0. -/
theorem pay2_apply (v : Vec Ideal S4x256 .f32) (i : S4x256.Idx) : k0_pay2 (F := Ideal) v i = max (v i) 0 := by
  unfold k0_pay2
  show max (v i) (Ideal.ofBits .f32 0x00000000#32) = _
  rw [Ideal.ofBits_zero_f32]

end Cert.Chamfer.Pay

end
-- ==== Proof.KWindows.lean ====
/-
  What each block the kernel body loads is, in terms of the two argument clouds.

  Before the grid runs, each cloud (4 × 8192 × 3) is split into its three coordinate planes (4 × 8192): plane d of a cloud
  reads, at (n, p), the cloud at (n, p, d). At grid point t, with i = t / 16 and j = t mod 16, the body sees rows
  256 i … 256 i + 255 of the three planes of the first cloud and rows 512 j … 512 j + 511 of the three planes of the
  second. So entry (n, r) of a block of the first cloud is x (n, 256 i + r, d), and entry (n, k) of a block of the second is
  y (n, 512 j + k, d).
-/
import proofs.«125190_j11261404250604_2_alg».proof.Proof.Gen.KernelIdeal.Frame
import Idealize.ShloMosaic.Lib.Pipeline.Value
import Idealize.ShloMosaic.Lib.StableHlo.Run
import Idealize.ShloMosaic.Lib.ValueIdx

noncomputable section

namespace Cert.Chamfer.Win

open Cert.KernelIdeal Cert.KernelIdeal.Gen Idealize.ShloMosaic Idealize.ShloMosaic.TcCoe Idealize.ShloMosaic.ValueIdx Idealize.SL.Sem Idealize.ShloMosaic.StableHlo

variable {F : FTy → Type} [FloatOps F]
variable (m : (ℓ : Loc nD τ sig) → Buf (Elt F) ℓ)

/-! ## A coordinate plane of a cloud -/

/-- Coordinate plane `d` of a cloud (the slice [:, :, d : d + 1] reshaped to 4 × 8192) reads, at (n, p), the cloud at (n, p, d). -/
theorem plane_apply {α : Type} (X : S4x8192x3.Idx → α) (o : Nat) (d : Fin 3) (hd : d.val = o)
    (h : S4x8192x3.Slices ![0, 0, o] S4x8192x1) (h' : S4x8192x1.ShapeCasts S4x8192) (n : Fin 4) (p : Fin 8192) :
    shapeCast S4x8192 (extractStridedSlice S4x8192x1 ![0, 0, o] X h) h' (ix2 n p) = X (ix3 n p d) := by
  refine (shapeCast_apply _ h' (ix2 n p) (ix3 n p (0 : Fin 1)) (by
    rw [Shape.rowMajor_val_three, Shape.rowMajor_val_two]
    show (n.val * 8192 + p.val) * 1 + 0 = n.val * 8192 + p.val
    omega)).trans ?_
  exact extractStridedSlice_apply _ X h (ix3 n p (0 : Fin 1)) (ix3 n p d) fun a => by
    match a with
    | ⟨0, _⟩ => exact (Nat.zero_add _).symm
    | ⟨1, _⟩ => exact (Nat.zero_add _).symm
    | ⟨2, _⟩ => show d.val = o + 0; omega

/-! ## The six planes as the grid finds them -/

/-- Plane 0 of the first cloud. -/
theorem V_plane0 (c : Dev nD) : (V m c main_call0_v1 : S4x8192.Idx → Elt F .f32)
    = shapeCast S4x8192 (extractStridedSlice S4x8192x1 ![0, 0, 0] (m ((c : Thread nD τ).loc main_arg0)) slices_S4x8192x3_S4x8192x1_0_0_0) shapeCasts_S4x8192x1_S4x8192 := by
  show StableHlo.after hostOps0 (fun b => m (c, b)) (Proc.devRef .tc main_call0_v1) = _
  after_results
  rfl

/-- Plane 1 of the first cloud. -/
theorem V_plane1 (c : Dev nD) : (V m c main_call0_v3 : S4x8192.Idx → Elt F .f32)
    = shapeCast S4x8192 (extractStridedSlice S4x8192x1 ![0, 0, 1] (m ((c : Thread nD τ).loc main_arg0)) slices_S4x8192x3_S4x8192x1_0_0_1) shapeCasts_S4x8192x1_S4x8192 := by
  show StableHlo.after hostOps0 (fun b => m (c, b)) (Proc.devRef .tc main_call0_v3) = _
  after_results
  rfl

/-- Plane 2 of the first cloud. -/
theorem V_plane2 (c : Dev nD) : (V m c main_call0_v5 : S4x8192.Idx → Elt F .f32)
    = shapeCast S4x8192 (extractStridedSlice S4x8192x1 ![0, 0, 2] (m ((c : Thread nD τ).loc main_arg0)) slices_S4x8192x3_S4x8192x1_0_0_2) shapeCasts_S4x8192x1_S4x8192 := by
  show StableHlo.after hostOps0 (fun b => m (c, b)) (Proc.devRef .tc main_call0_v5) = _
  after_results
  rfl

/-- Plane 0 of the second cloud. -/
theorem V_plane3 (c : Dev nD) : (V m c main_call0_v7 : S4x8192.Idx → Elt F .f32)
    = shapeCast S4x8192 (extractStridedSlice S4x8192x1 ![0, 0, 0] (m ((c : Thread nD τ).loc main_arg1)) slices_S4x8192x3_S4x8192x1_0_0_0) shapeCasts_S4x8192x1_S4x8192 := by
  show StableHlo.after hostOps0 (fun b => m (c, b)) (Proc.devRef .tc main_call0_v7) = _
  after_results
  rfl

/-- Plane 1 of the second cloud. -/
theorem V_plane4 (c : Dev nD) : (V m c main_call0_v9 : S4x8192.Idx → Elt F .f32)
    = shapeCast S4x8192 (extractStridedSlice S4x8192x1 ![0, 0, 1] (m ((c : Thread nD τ).loc main_arg1)) slices_S4x8192x3_S4x8192x1_0_0_1) shapeCasts_S4x8192x1_S4x8192 := by
  show StableHlo.after hostOps0 (fun b => m (c, b)) (Proc.devRef .tc main_call0_v9) = _
  after_results
  rfl

/-- Plane 2 of the second cloud. -/
theorem V_plane5 (c : Dev nD) : (V m c main_call0_v11 : S4x8192.Idx → Elt F .f32)
    = shapeCast S4x8192 (extractStridedSlice S4x8192x1 ![0, 0, 2] (m ((c : Thread nD τ).loc main_arg1)) slices_S4x8192x3_S4x8192x1_0_0_2) shapeCasts_S4x8192x1_S4x8192 := by
  show StableHlo.after hostOps0 (fun b => m (c, b)) (Proc.devRef .tc main_call0_v11) = _
  after_results
  rfl

/-! ## The blocks -/

/-- The blocks of the first cloud's planes sit at block row 0 and block column t / 16 (all three windows alike). -/
theorem idx_first : ∀ t : Fin cfg0.N, win0_0.index t (0 : Fin 2) = 0 ∧ win0_0.index t (1 : Fin 2) = t.val / 16
    ∧ win0_1.index t (0 : Fin 2) = 0 ∧ win0_1.index t (1 : Fin 2) = t.val / 16
    ∧ win0_2.index t (0 : Fin 2) = 0 ∧ win0_2.index t (1 : Fin 2) = t.val / 16 :=
  (by decide +kernel : ∀ t : Fin grid0.N, _)

/-- The blocks of the second cloud's planes sit at block row 0 and block column t mod 16 (all three windows alike). -/
theorem idx_second : ∀ t : Fin cfg0.N, win0_3.index t (0 : Fin 2) = 0 ∧ win0_3.index t (1 : Fin 2) = t.val % 16
    ∧ win0_4.index t (0 : Fin 2) = 0 ∧ win0_4.index t (1 : Fin 2) = t.val % 16
    ∧ win0_5.index t (0 : Fin 2) = 0 ∧ win0_5.index t (1 : Fin 2) = t.val % 16 :=
  (by decide +kernel : ∀ t : Fin grid0.N, _)

/-- Entry (n, r) of window 0's block at point t: the first cloud at (n, 256 · (t / 16) + r, 0). -/
theorem blk0_apply (c : Dev nD) (t : Fin cfg0.N) (n : Fin 4) (r : Fin 256) (p : Fin 8192) (hp : p.val = 256 * (t.val / 16) + r.val) :
    (iblk m c 0 t : Vec F S4x256 .f32) (ix2 n r) = m ((c : Thread nD τ).loc main_arg0) (ix3 n p (0 : Fin 3)) := by
  have e : (iblk m c 0 t : Vec F S4x256 .f32) (ix2 n r) = (V m c main_call0_v1 : S4x8192.Idx → Elt F .f32) (ix2 n p) := by
    unfold iblk
    rw [View.read_apply]
    show V m c main_call0_v1 (((cfg0.win 0).blk t).view.emb (ix2 n r)) = V m c main_call0_v1 (ix2 n p)
    refine congrArg (V m c main_call0_v1) (funext fun a => Fin.ext ?_)
    obtain ⟨e0, e1, e2, e3, e4, e5⟩ := idx_first t
    match a with
    | ⟨0, _⟩ => show win0_0.index t (0 : Fin 2) * 4 + 1 * n.val = n.val; omega
    | ⟨1, _⟩ => show win0_0.index t (1 : Fin 2) * 256 + 1 * r.val = p.val; omega
  rw [e, V_plane0 m c]
  exact plane_apply _ 0 (0 : Fin 3) rfl _ _ n p

/-- Entry (n, r) of window 1's block at point t: the first cloud at (n, 256 · (t / 16) + r, 1). -/
theorem blk1_apply (c : Dev nD) (t : Fin cfg0.N) (n : Fin 4) (r : Fin 256) (p : Fin 8192) (hp : p.val = 256 * (t.val / 16) + r.val) :
    (iblk m c 1 t : Vec F S4x256 .f32) (ix2 n r) = m ((c : Thread nD τ).loc main_arg0) (ix3 n p (1 : Fin 3)) := by
  have e : (iblk m c 1 t : Vec F S4x256 .f32) (ix2 n r) = (V m c main_call0_v3 : S4x8192.Idx → Elt F .f32) (ix2 n p) := by
    unfold iblk
    rw [View.read_apply]
    show V m c main_call0_v3 (((cfg0.win 1).blk t).view.emb (ix2 n r)) = V m c main_call0_v3 (ix2 n p)
    refine congrArg (V m c main_call0_v3) (funext fun a => Fin.ext ?_)
    obtain ⟨e0, e1, e2, e3, e4, e5⟩ := idx_first t
    match a with
    | ⟨0, _⟩ => show win0_1.index t (0 : Fin 2) * 4 + 1 * n.val = n.val; omega
    | ⟨1, _⟩ => show win0_1.index t (1 : Fin 2) * 256 + 1 * r.val = p.val; omega
  rw [e, V_plane1 m c]
  exact plane_apply _ 1 (1 : Fin 3) rfl _ _ n p

/-- Entry (n, r) of window 2's block at point t: the first cloud at (n, 256 · (t / 16) + r, 2). -/
theorem blk2_apply (c : Dev nD) (t : Fin cfg0.N) (n : Fin 4) (r : Fin 256) (p : Fin 8192) (hp : p.val = 256 * (t.val / 16) + r.val) :
    (iblk m c 2 t : Vec F S4x256 .f32) (ix2 n r) = m ((c : Thread nD τ).loc main_arg0) (ix3 n p (2 : Fin 3)) := by
  have e : (iblk m c 2 t : Vec F S4x256 .f32) (ix2 n r) = (V m c main_call0_v5 : S4x8192.Idx → Elt F .f32) (ix2 n p) := by
    unfold iblk
    rw [View.read_apply]
    show V m c main_call0_v5 (((cfg0.win 2).blk t).view.emb (ix2 n r)) = V m c main_call0_v5 (ix2 n p)
    refine congrArg (V m c main_call0_v5) (funext fun a => Fin.ext ?_)
    obtain ⟨e0, e1, e2, e3, e4, e5⟩ := idx_first t
    match a with
    | ⟨0, _⟩ => show win0_2.index t (0 : Fin 2) * 4 + 1 * n.val = n.val; omega
    | ⟨1, _⟩ => show win0_2.index t (1 : Fin 2) * 256 + 1 * r.val = p.val; omega
  rw [e, V_plane2 m c]
  exact plane_apply _ 2 (2 : Fin 3) rfl _ _ n p

/-- Entry (n, k) of window 3's block at point t: the second cloud at (n, 512 · (t mod 16) + k, 0). -/
theorem blk3_apply (c : Dev nD) (t : Fin cfg0.N) (n : Fin 4) (k : Fin 512) (p : Fin 8192) (hp : p.val = 512 * (t.val % 16) + k.val) :
    (iblk m c 3 t : Vec F S4x512 .f32) (ix2 n k) = m ((c : Thread nD τ).loc main_arg1) (ix3 n p (0 : Fin 3)) := by
  have e : (iblk m c 3 t : Vec F S4x512 .f32) (ix2 n k) = (V m c main_call0_v7 : S4x8192.Idx → Elt F .f32) (ix2 n p) := by
    unfold iblk
    rw [View.read_apply]
    show V m c main_call0_v7 (((cfg0.win 3).blk t).view.emb (ix2 n k)) = V m c main_call0_v7 (ix2 n p)
    refine congrArg (V m c main_call0_v7) (funext fun a => Fin.ext ?_)
    obtain ⟨e0, e1, e2, e3, e4, e5⟩ := idx_second t
    match a with
    | ⟨0, _⟩ => show win0_3.index t (0 : Fin 2) * 4 + 1 * n.val = n.val; omega
    | ⟨1, _⟩ => show win0_3.index t (1 : Fin 2) * 512 + 1 * k.val = p.val; omega
  rw [e, V_plane3 m c]
  exact plane_apply _ 0 (0 : Fin 3) rfl _ _ n p

/-- Entry (n, k) of window 4's block at point t: the second cloud at (n, 512 · (t mod 16) + k, 1). -/
theorem blk4_apply (c : Dev nD) (t : Fin cfg0.N) (n : Fin 4) (k : Fin 512) (p : Fin 8192) (hp : p.val = 512 * (t.val % 16) + k.val) :
    (iblk m c 4 t : Vec F S4x512 .f32) (ix2 n k) = m ((c : Thread nD τ).loc main_arg1) (ix3 n p (1 : Fin 3)) := by
  have e : (iblk m c 4 t : Vec F S4x512 .f32) (ix2 n k) = (V m c main_call0_v9 : S4x8192.Idx → Elt F .f32) (ix2 n p) := by
    unfold iblk
    rw [View.read_apply]
    show V m c main_call0_v9 (((cfg0.win 4).blk t).view.emb (ix2 n k)) = V m c main_call0_v9 (ix2 n p)
    refine congrArg (V m c main_call0_v9) (funext fun a => Fin.ext ?_)
    obtain ⟨e0, e1, e2, e3, e4, e5⟩ := idx_second t
    match a with
    | ⟨0, _⟩ => show win0_4.index t (0 : Fin 2) * 4 + 1 * n.val = n.val; omega
    | ⟨1, _⟩ => show win0_4.index t (1 : Fin 2) * 512 + 1 * k.val = p.val; omega
  rw [e, V_plane4 m c]
  exact plane_apply _ 1 (1 : Fin 3) rfl _ _ n p

/-- Entry (n, k) of window 5's block at point t: the second cloud at (n, 512 · (t mod 16) + k, 2). -/
theorem blk5_apply (c : Dev nD) (t : Fin cfg0.N) (n : Fin 4) (k : Fin 512) (p : Fin 8192) (hp : p.val = 512 * (t.val % 16) + k.val) :
    (iblk m c 5 t : Vec F S4x512 .f32) (ix2 n k) = m ((c : Thread nD τ).loc main_arg1) (ix3 n p (2 : Fin 3)) := by
  have e : (iblk m c 5 t : Vec F S4x512 .f32) (ix2 n k) = (V m c main_call0_v11 : S4x8192.Idx → Elt F .f32) (ix2 n p) := by
    unfold iblk
    rw [View.read_apply]
    show V m c main_call0_v11 (((cfg0.win 5).blk t).view.emb (ix2 n k)) = V m c main_call0_v11 (ix2 n p)
    refine congrArg (V m c main_call0_v11) (funext fun a => Fin.ext ?_)
    obtain ⟨e0, e1, e2, e3, e4, e5⟩ := idx_second t
    match a with
    | ⟨0, _⟩ => show win0_5.index t (0 : Fin 2) * 4 + 1 * n.val = n.val; omega
    | ⟨1, _⟩ => show win0_5.index t (1 : Fin 2) * 512 + 1 * k.val = p.val; omega
  rw [e, V_plane5 m c]
  exact plane_apply _ 2 (2 : Fin 3) rfl _ _ n p

end Cert.Chamfer.Win

end
-- ==== Proof.KCases.lean ====
import proofs.«125190_j11261404250604_2_alg».proof.Proof.Gen.KernelIdeal.Frame
import Idealize.ShloMosaic.Lib.Pipeline.Value
import Idealize.ShloMosaic.Lib.Tactic

set_option maxRecDepth 16384

noncomputable section

namespace Cert.Chamfer.Cases

open Cert.KernelIdeal Cert.KernelIdeal.Gen Idealize.ShloMosaic Idealize.ShloMosaic.TcCoe Idealize.ShloMosaic.Tactic Idealize.SL.Sem

variable {F : FTy → Type} [FloatOps F]

/-- The offset `(0, 0)` of every load and store of the body: each reads or writes a whole buffer. -/
theorem hz : (![0, 0] : Fin 2 → Nat) = fun _ => 0 := funext fun a => by fin_cases a <;> rfl

/-- CASE A (the first step of a row): the body stores the block of `+∞` into the carried scratch, loads the six input
    blocks whole and the scratch back (a covered load of the store just made), and leaves in the scratch the running
    minimum taken against `+∞`. -/
theorem sout_A (c : Dev nD) (i : grid0.Coords) (arg2 : Memref sig .tc .vmem S4x256 .f32) (harg2 : arg2.IsWhole) (arg3 : Memref sig .tc .vmem S4x256 .f32) (harg3 : arg3.IsWhole) (arg4 : Memref sig .tc .vmem S4x256 .f32) (harg4 : arg4.IsWhole) (arg5 : Memref sig .tc .vmem S4x512 .f32) (harg5 : arg5.IsWhole) (arg6 : Memref sig .tc .vmem S4x512 .f32) (harg6 : arg6.IsWhole) (arg7 : Memref sig .tc .vmem S4x512 .f32) (harg7 : arg7.IsWhole) (arg8 : Memref sig .tc .vmem S4x256 .f32) (harg8 : arg8.IsWhole) (arg9 : Memref sig .tc .vmem S4x256 .f32) (harg9 : arg9.IsWhole) (hc0 : cond0_0 i) (hc1 : ¬cond0_1 i)
    (x0 : Vec F S4x256 .f32) (x1 : Vec F S4x256 .f32) (x2 : Vec F S4x256 .f32) (x3 : Vec F S4x512 .f32) (x4 : Vec F S4x512 .f32) (x5 : Vec F S4x512 .f32) :
    sout0_A_0 c i arg2 harg2 arg3 harg3 arg4 harg4 arg5 harg5 arg6 harg6 arg7 harg7 arg8 harg8 arg9 harg9 hc0 hc1 x0 x1 x2 x3 x4 x5 = k0_pay1 (k0_pay4 x0 x1 x2 x3 x4 x5 (k0_pay3 (F := F))) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S4x256) hz, View.readCov_unit_zero (S := S4x256) _ hz]
  simp only [View.readAt_eq_ld, harg2.read_unread, harg3.read_unread, harg4.read_unread, harg5.read_unread, harg6.read_unread, harg7.read_unread, harg8.read_unread, harg9.read_unread, View.ld_unit_zero (S := S4x256) hz, View.ld_unit_zero (S := S4x512) hz]

/-- CASE B (a middle step): the scratch comes in holding `xs0`; the body's one covering store leaves the running
    minimum taken against `xs0`. -/
theorem sout_B (c : Dev nD) (i : grid0.Coords) (arg2 : Memref sig .tc .vmem S4x256 .f32) (harg2 : arg2.IsWhole) (arg3 : Memref sig .tc .vmem S4x256 .f32) (harg3 : arg3.IsWhole) (arg4 : Memref sig .tc .vmem S4x256 .f32) (harg4 : arg4.IsWhole) (arg5 : Memref sig .tc .vmem S4x512 .f32) (harg5 : arg5.IsWhole) (arg6 : Memref sig .tc .vmem S4x512 .f32) (harg6 : arg6.IsWhole) (arg7 : Memref sig .tc .vmem S4x512 .f32) (harg7 : arg7.IsWhole) (arg8 : Memref sig .tc .vmem S4x256 .f32) (harg8 : arg8.IsWhole) (arg9 : Memref sig .tc .vmem S4x256 .f32) (harg9 : arg9.IsWhole) (hc0 : ¬cond0_0 i) (hc1 : ¬cond0_1 i)
    (x0 : Vec F S4x256 .f32) (x1 : Vec F S4x256 .f32) (x2 : Vec F S4x256 .f32) (x3 : Vec F S4x512 .f32) (x4 : Vec F S4x512 .f32) (x5 : Vec F S4x512 .f32) (xs0 : Vec F S4x256 .f32) :
    sout0_B_0 c i arg2 harg2 arg3 harg3 arg4 harg4 arg5 harg5 arg6 harg6 arg7 harg7 arg8 harg8 arg9 harg9 hc0 hc1 x0 x1 x2 x3 x4 x5 xs0 = k0_pay1 (k0_pay4 x0 x1 x2 x3 x4 x5 xs0) := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S4x256) hz, View.ld_unit_zero (S := S4x512) hz]

/-- CASE C (the last step of a row), the scratch: as in case B. -/
theorem sout_C (c : Dev nD) (i : grid0.Coords) (arg2 : Memref sig .tc .vmem S4x256 .f32) (harg2 : arg2.IsWhole) (arg3 : Memref sig .tc .vmem S4x256 .f32) (harg3 : arg3.IsWhole) (arg4 : Memref sig .tc .vmem S4x256 .f32) (harg4 : arg4.IsWhole) (arg5 : Memref sig .tc .vmem S4x512 .f32) (harg5 : arg5.IsWhole) (arg6 : Memref sig .tc .vmem S4x512 .f32) (harg6 : arg6.IsWhole) (arg7 : Memref sig .tc .vmem S4x512 .f32) (harg7 : arg7.IsWhole) (arg8 : Memref sig .tc .vmem S4x256 .f32) (harg8 : arg8.IsWhole) (arg9 : Memref sig .tc .vmem S4x256 .f32) (harg9 : arg9.IsWhole) (hc0 : ¬cond0_0 i) (hc1 : cond0_1 i)
    (x0 : Vec F S4x256 .f32) (x1 : Vec F S4x256 .f32) (x2 : Vec F S4x256 .f32) (x3 : Vec F S4x512 .f32) (x4 : Vec F S4x512 .f32) (x5 : Vec F S4x512 .f32) (xs0 : Vec F S4x256 .f32) :
    sout0_C_0 c i arg2 harg2 arg3 harg3 arg4 harg4 arg5 harg5 arg6 harg6 arg7 harg7 arg8 harg8 arg9 harg9 hc0 hc1 x0 x1 x2 x3 x4 x5 xs0 = k0_pay1 (k0_pay4 x0 x1 x2 x3 x4 x5 xs0) := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, View.ld_unit_zero (S := S4x256) hz, View.ld_unit_zero (S := S4x512) hz]

/-- CASE C, the output block: the body reads back the scratch it has just stored (a covered load) and stores its
    maximum with zero into the output block. -/
theorem out_C (c : Dev nD) (i : grid0.Coords) (arg2 : Memref sig .tc .vmem S4x256 .f32) (harg2 : arg2.IsWhole) (arg3 : Memref sig .tc .vmem S4x256 .f32) (harg3 : arg3.IsWhole) (arg4 : Memref sig .tc .vmem S4x256 .f32) (harg4 : arg4.IsWhole) (arg5 : Memref sig .tc .vmem S4x512 .f32) (harg5 : arg5.IsWhole) (arg6 : Memref sig .tc .vmem S4x512 .f32) (harg6 : arg6.IsWhole) (arg7 : Memref sig .tc .vmem S4x512 .f32) (harg7 : arg7.IsWhole) (arg8 : Memref sig .tc .vmem S4x256 .f32) (harg8 : arg8.IsWhole) (arg9 : Memref sig .tc .vmem S4x256 .f32) (harg9 : arg9.IsWhole) (hc0 : ¬cond0_0 i) (hc1 : cond0_1 i)
    (x0 : Vec F S4x256 .f32) (x1 : Vec F S4x256 .f32) (x2 : Vec F S4x256 .f32) (x3 : Vec F S4x512 .f32) (x4 : Vec F S4x512 .f32) (x5 : Vec F S4x512 .f32) (xs0 : Vec F S4x256 .f32) :
    out0_C_6 c i arg2 harg2 arg3 harg3 arg4 harg4 arg5 harg5 arg6 harg6 arg7 harg7 arg8 harg8 arg9 harg9 hc0 hc1 x0 x1 x2 x3 x4 x5 xs0 = k0_pay2 (k0_pay1 (k0_pay4 x0 x1 x2 x3 x4 x5 xs0)) := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz, View.readCov_unit_zero (S := S4x256) _ hz]
  simp only [View.readAt_eq_ld, harg2.read_unread, harg3.read_unread, harg4.read_unread, harg5.read_unread, harg6.read_unread, harg7.read_unread, harg8.read_unread, harg9.read_unread, View.ld_unit_zero (S := S4x256) hz, View.ld_unit_zero (S := S4x512) hz]

end Cert.Chamfer.Cases

end
-- ==== Proof.KInv.lean ====
/-
  The running minimum the kernel carries from grid point to grid point, and the block it writes back.

  Grid point t = 16 i + j handles rows 256 i … 256 i + 255 of the first cloud against rows 512 j … 512 j + 511 of the
  second. The carried buffer starts each row of points (j = 0) from +∞ and after point t holds, at (n, r), the minimum of
  dist n (256 i + r) q over q < 512 (j + 1): by induction on t, one group of 512 at a time. At j = 15 that is the minimum
  over all 8192 points of the second cloud, and the block written back there is that minimum clipped below at 0: the
  nearest squared distance `nn` at (n, 256 i + r).
-/
import proofs.«125190_j11261404250604_2_alg».proof.Proof.Gen.KernelIdeal.Frame
import proofs.«125190_j11261404250604_2_alg».proof.Proof.Spec
import proofs.«125190_j11261404250604_2_alg».proof.Proof.KPay
import proofs.«125190_j11261404250604_2_alg».proof.Proof.KWindows
import proofs.«125190_j11261404250604_2_alg».proof.Proof.KCases

noncomputable section

namespace Cert.Chamfer.Inv

open Cert.KernelIdeal Cert.KernelIdeal.Gen Cert.Chamfer Idealize.ShloMosaic Idealize.ShloMosaic.TcCoe Idealize.ShloMosaic.ValueIdx Idealize.SL.Sem

variable (m : (ℓ : Loc nD τ sig) → Buf (Elt Ideal) ℓ)

/-- The first cloud as launched. -/
abbrev X (c : Dev nD) : Cloud := m ((c : Thread nD τ).loc main_arg0)
/-- The second cloud as launched. -/
abbrev Y (c : Dev nD) : Cloud := m ((c : Thread nD τ).loc main_arg1)

/-- What the carried buffer holds when the body at point `t` first reads it: +∞ at the first point of a row of points,
    otherwise what the point before left. -/
def before (c : Dev nD) (t : Fin cfg0.N) : Vec Ideal S4x256 .f32 :=
  if t.val % 16 = 0 then k0_pay3 (F := Ideal)
  else (outsAt0 m c (t.val - 1) (Nat.lt_of_le_of_lt (Nat.sub_le _ _) t.isLt)).2

/-- After the body at point `t` the carried buffer holds the running minimum over this point's blocks, taken against
    what it held before. -/
theorem carried_eq (c : Dev nD) (t : Fin cfg0.N) :
    (outsAt0 m c t.val t.isLt).2 = k0_pay1 (k0_pay4 (iblk m c 0 t) (iblk m c 1 t) (iblk m c 2 t) (iblk m c 3 t) (iblk m c 4 t) (iblk m c 5 t) (before m c t)) := by
  unfold before
  by_cases h0 : t.val % 16 = 0
  · have h1 : ¬t.val % 16 = 15 := by omega
    rw [if_pos h0, outsAt0_A m c t h0 h1]
    dsimp only
    exact Cases.sout_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t)
  · rw [if_neg h0]
    by_cases h1 : t.val % 16 = 15
    · rw [outsAt0_C m c t h0 h1]
      dsimp only
      exact Cases.sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2
    · rw [outsAt0_B m c t h0 h1]
      dsimp only
      exact Cases.sout_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2

/-- At the last point of a row of points the block written back is the carried buffer clipped below at 0. -/
theorem written_eq (c : Dev nD) (t : Fin cfg0.N) (h1 : t.val % 16 = 15) :
    (outsAt0 m c t.val t.isLt).1 = k0_pay2 (F := Ideal) (outsAt0 m c t.val t.isLt).2 := by
  have h0 : ¬t.val % 16 = 0 := by omega
  rw [outsAt0_C m c t h0 h1]
  dsimp only
  rw [Cases.sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2]
  exact Cases.out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2

/-- One step at an entry: the value before met with the minimum of the 512 distances of this point's pair of blocks. -/
theorem step_apply (c : Dev nD) (t : Fin cfg0.N) (s : Vec Ideal S4x256 .f32) (n : Fin 4) (r : Fin 256) (p : Fin 8192)
    (hp : p.val = 256 * (t.val / 16) + r.val) :
    k0_pay1 (F := Ideal) (k0_pay4 (iblk m c 0 t) (iblk m c 1 t) (iblk m c 2 t) (iblk m c 3 t) (iblk m c 4 t) (iblk m c 5 t) s) (ix2 n r)
      = min (s (ix2 n r)) (Finset.univ.fold min ⊤ (fun k : Fin 512 => dist (X m c) (Y m c) n p
          ⟨512 * (t.val % 16) + k.val, by have := k.isLt; have := Nat.mod_lt t.val (show 0 < 16 by decide); omega⟩)) := by
  rw [Pay.pay1_eq]
  refine (Pay.pay4_apply (iblk m c 0 t) (iblk m c 1 t) (iblk m c 2 t) (iblk m c 3 t) (iblk m c 4 t) (iblk m c 5 t) s n r).trans ?_
  refine congrArg (min (s (ix2 n r))) (congrArg (fun f => Finset.univ.fold min ⊤ f) (funext fun k => ?_))
  unfold Pay.blockDist dist
  rw [Win.blk0_apply m c t n r p hp, Win.blk1_apply m c t n r p hp, Win.blk2_apply m c t n r p hp,
    Win.blk3_apply m c t n k ⟨512 * (t.val % 16) + k.val, by have := k.isLt; have := Nat.mod_lt t.val (show 0 < 16 by decide); omega⟩ rfl,
    Win.blk4_apply m c t n k ⟨512 * (t.val % 16) + k.val, by have := k.isLt; have := Nat.mod_lt t.val (show 0 < 16 by decide); omega⟩ rfl,
    Win.blk5_apply m c t n k ⟨512 * (t.val % 16) + k.val, by have := k.isLt; have := Nat.mod_lt t.val (show 0 < 16 by decide); omega⟩ rfl]

/-- THE INVARIANT: after point n = 16 i + j the carried buffer holds, at (a, r), the minimum of the distances from point
    256 i + r of the first cloud to the points below 512 (j + 1) of the second. -/
theorem carried_isMin (c : Dev nD) (n : ℕ) : ∀ (hn : n < cfg0.N) (a : Fin 4) (r : Fin 256) (p : Fin 8192),
    p.val = 256 * (n / 16) + r.val →
    IsMinBelow (fun q => dist (X m c) (Y m c) a p q) (512 * (n % 16 + 1)) ((outsAt0 m c n hn).2 (ix2 a r)) := by
  induction n with
  | zero =>
    intro hn a r p hp
    have e : (outsAt0 m c 0 hn).2 = _ := carried_eq m c ⟨0, hn⟩
    rw [e, step_apply m c ⟨0, hn⟩ _ a r p hp]
    have hb : before m c ⟨0, hn⟩ (ix2 a r) = ⊤ := by
      unfold before; rw [if_pos (by rfl)]; exact Pay.pay3_apply _
    rw [hb]
    exact IsMinBelow.step (j := 0) (by decide) (isMinBelow_zero _) _ (fun _ => rfl)
  | succ k ih =>
    intro hn a r p hp
    have hN : cfg0.N = 512 := N_0
    have e : (outsAt0 m c (k + 1) hn).2 = _ := carried_eq m c ⟨k + 1, hn⟩
    rw [e, step_apply m c ⟨k + 1, hn⟩ _ a r p hp]
    have hj : (k + 1) % 16 < 16 := Nat.mod_lt _ (by decide)
    by_cases h0 : (k + 1) % 16 = 0
    · have hb : before m c ⟨k + 1, hn⟩ (ix2 a r) = ⊤ := by
        unfold before; rw [if_pos h0]; exact Pay.pay3_apply _
      rw [hb]
      have hs : IsMinBelow (fun q => dist (X m c) (Y m c) a p q) (512 * ((k + 1) % 16)) ⊤ := by
        rw [h0]; exact isMinBelow_zero _
      exact IsMinBelow.step hj hs _ (fun _ => rfl)
    · have hb : before m c ⟨k + 1, hn⟩ = (outsAt0 m c k (Nat.lt_of_succ_lt hn)).2 := by
        unfold before; rw [if_neg h0]; rfl
      rw [hb]
      have hs : IsMinBelow (fun q => dist (X m c) (Y m c) a p q) (512 * ((k + 1) % 16))
          ((outsAt0 m c k (Nat.lt_of_succ_lt hn)).2 (ix2 a r)) := by
        have h := ih (Nat.lt_of_succ_lt hn) a r p (by omega)
        rwa [show k % 16 + 1 = (k + 1) % 16 by omega] at h
      exact IsMinBelow.step hj hs _ (fun _ => rfl)

/-- THE BLOCK WRITTEN BACK at the last point of a row of points: the nearest squared distance, clipped at 0. -/
theorem written_apply (c : Dev nD) (t : Fin cfg0.N) (h1 : t.val % 16 = 15) (a : Fin 4) (r : Fin 256) (p : Fin 8192)
    (hp : p.val = 256 * (t.val / 16) + r.val) :
    (outsAt0 m c t.val t.isLt).1 (ix2 a r) = nn (X m c) (Y m c) (ix2 a p) := by
  rw [written_eq m c t h1, Pay.pay2_apply]
  have h := carried_isMin m c t.val t.isLt a r p hp
  rw [h1] at h
  have h' : IsMinBelow (fun q => dist (X m c) (Y m c) a p q) 8192 ((outsAt0 m c t.val t.isLt).2 (ix2 a r)) := h
  rw [h'.eq_fold]
  rfl

end Cert.Chamfer.Inv

end
-- ==== Proof.KCover.lean ====
import proofs.«125190_j11261404250604_2_alg».proof.Proof.Gen.KernelIdeal.Frame
import Idealize.ShloMosaic.Lib.Pipeline.Value
import Idealize.ShloMosaic.Lib.ValueIdx

/-!
# The output window's blocks tile the 4 × 8192 output array

The grid is 32 × 16: point `t` has row `t / 16` and step `t % 16`. The output window's block at point `t` is the
`4 × 256` block `(0, t / 16)` of the array, and it is written back exactly at the last step of each row
(`t % 16 = 15`). So the 32 blocks written back are the columns `256 * q … 256 * q + 255`, `q < 32`: every index of
the array lies in exactly the block of the point `16 * (column / 256) + 15`.
-/

noncomputable section

namespace Cert.Chamfer.Cover

open Cert.KernelIdeal Cert.KernelIdeal.Gen Idealize.ShloMosaic Idealize.ShloMosaic.TcCoe Idealize.ShloMosaic.ValueIdx Idealize.SL.Sem

/-- The printed index map of the output window, decided over the grid: block `(0, t / 16)` at point `t`. -/
theorem idx_out : ∀ t : Fin cfg0.N, win0_6.index t (0 : Fin 2) = 0 ∧ win0_6.index t (1 : Fin 2) = t.val / 16 :=
  (by decide +kernel : ∀ t : Fin grid0.N, _)

/-- Where point `t`'s block puts its entry `(n, r)` in the array: row `n`, column `256 * (t / 16) + r`
    (a block's coordinate is block index × block size + the coordinate inside the block). -/
theorem emb_out (t : Fin cfg0.N) (n : Fin 4) (r : Fin 256) (p : Fin 8192) (hp : p.val = 256 * (t.val / 16) + r.val) :
    ((cfg0.win 6).blk t).view.emb (ix2 n r) = (ix2 n p : S4x8192.Idx) := by
  obtain ⟨e0, e1⟩ := idx_out t
  funext a; apply Fin.ext
  match a with
  | ⟨0, _⟩ => show win0_6.index t (0 : Fin 2) * 4 + 1 * n.val = n.val; omega
  | ⟨1, _⟩ => show win0_6.index t (1 : Fin 2) * 256 + 1 * r.val = p.val; omega

/-- An index of the array is in point `t`'s block iff each coordinate is in the block's range on its axis. -/
theorem mem_out (t : Fin cfg0.N) (i : S4x8192.Idx) :
    i ∈ ((cfg0.win 6).blk t).view.set ↔ ∀ a : Fin 2, win0_6.index t a * S4x256.size a ≤ (i a).val ∧ (i a).val < win0_6.index t a * S4x256.size a + S4x256.size a := by
  show i ∈ ((View.whole main_call0_v12).slice (win0_6.rect t)).set ↔ _
  rw [View.set_slice_whole, Rect.mem_set_unit]
  exact Iff.rfl

/-- Every index of the array is in the block some point writes back: the last step of the row its column falls in. -/
theorem cover_out (i : S4x8192.Idx) : ∃ t : Fin cfg0.N, (cfg0.win 6).flush t = true ∧ i ∈ ((cfg0.win 6).blk t).view.set := by
  have h0 : (i 0).val < 4 := (i 0).isLt
  have h1 : (i 1).val < 8192 := (i 1).isLt
  have hN : cfg0.N = 512 := N_0
  have ht : 16 * ((i 1).val / 256) + 15 < cfg0.N := by rw [hN]; omega
  obtain ⟨e0, e1⟩ := idx_out ⟨16 * ((i 1).val / 256) + 15, ht⟩
  have e1' : win0_6.index ⟨16 * ((i 1).val / 256) + 15, ht⟩ (1 : Fin 2) = (16 * ((i 1).val / 256) + 15) / 16 := e1
  refine ⟨⟨16 * ((i 1).val / 256) + 15, ht⟩, (flush0_6 _).mpr (by show (16 * ((i 1).val / 256) + 15) % 16 = 15; omega), ?_⟩
  rw [mem_out]
  intro a
  match a with
  | ⟨0, _⟩ =>
    show win0_6.index ⟨16 * ((i 1).val / 256) + 15, ht⟩ (0 : Fin 2) * 4 ≤ (i 0).val ∧ (i 0).val < win0_6.index ⟨16 * ((i 1).val / 256) + 15, ht⟩ (0 : Fin 2) * 4 + 4
    omega
  | ⟨1, _⟩ =>
    show win0_6.index ⟨16 * ((i 1).val / 256) + 15, ht⟩ (1 : Fin 2) * 256 ≤ (i 1).val ∧ (i 1).val < win0_6.index ⟨16 * ((i 1).val / 256) + 15, ht⟩ (1 : Fin 2) * 256 + 256
    omega

end Cert.Chamfer.Cover

end
-- ==== Proof.KFinal.lean ====
/-
  The output array after the whole grid has run.

  The output block is written back at the last point of each row of points (t = 16 i + 15), where it holds the nearest
  squared distance clipped at 0 for rows 256 i … 256 i + 255. Those 32 blocks tile the 4 × 8192 array, so after the grid
  the array holds `nn` of the two clouds at every index.
-/
import proofs.«125190_j11261404250604_2_alg».proof.Proof.Gen.KernelIdeal.Frame
import proofs.«125190_j11261404250604_2_alg».proof.Proof.Spec
import proofs.«125190_j11261404250604_2_alg».proof.Proof.KInv
import proofs.«125190_j11261404250604_2_alg».proof.Proof.KCover
import Idealize.ShloMosaic.Lib.Pipeline.Value

noncomputable section

namespace Cert.Chamfer.Final

open Cert.KernelIdeal Cert.KernelIdeal.Gen Cert.Chamfer Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- Two functions on a 4 × 256 block that agree at every (n, r) are equal. -/
theorem block_ext {α : Type} (f g : S4x256.Idx → α) (h : ∀ (n : Fin 4) (r : Fin 256), f (ix2 n r) = g (ix2 n r)) : f = g :=
  funext fun y => by rw [eq_ix2 y]; exact h _ _

/-- What a writing point writes back is its block of `nn`. -/
theorem flushed_eq (c : Dev nD) (t : Fin cfg0.N) (hf : (cfg0.win 6).flush t = true) :
    (dats m 0 c).flushed 6 t = ((cfg0.win 6).blk t).view.read (Elt Ideal) (nn (Inv.X m c) (Inv.Y m c)) := by
  have h1 : t.val % 16 = 15 := (flush0_6 t).mp hf
  show (cfg0.win 6).cut (grid0.coords t) ((dats m 0 c).after 6 t) = _
  rw [after0_6]
  refine block_ext _ _ fun n r => ?_
  have hN : cfg0.N = 512 := N_0
  have hp : 256 * (t.val / 16) + r.val < 8192 := by have := t.isLt; have := r.isLt; omega
  rw [View.read_apply, Cover.emb_out t n r ⟨256 * (t.val / 16) + r.val, hp⟩ rfl]
  exact Inv.written_apply m c t h1 n r ⟨256 * (t.val / 16) + r.val, hp⟩ rfl

/-- THE OUTPUT ARRAY after the grid: the nearest squared distance, clipped at 0, at every batch and point. -/
theorem final (c : Dev nD) : (dats m 0 c).arrAt 6 cfg0.N = nn (Inv.X m c) (Inv.Y m c) :=
  (dats m 0 c).arrAt_eq_of_cover 6 (nn (Inv.X m c) (Inv.Y m c)) (fun t hf => flushed_eq m c t hf) Cover.cover_out

end Cert.Chamfer.Final

end
-- ==== Proof.KTail.lean ====
/-
  The kernel program's run, read at its result.

  After the region the program sums the region's 4 × 8192 output over its second axis, sums the four results, and
  divides by the word of 4.0, each sum started from the word of 0.0: the specification's tail applied to the region's
  output array. The three operations run on the core's buffers as the region leaves them, where the output array
  holds what the proof data say of output window 6 after the last grid point and every other buffer is as it was at
  the region's entry; each operation's result is its function of its operands' contents, and carrying contents to a
  buffer's type and back changes nothing. The run then states, at the result buffer, that value, and that the two
  arguments end as launched.
-/
import proofs.«125190_j11261404250604_2_alg».proof.Proof.Gen.KernelIdeal.Frame
import proofs.«125190_j11261404250604_2_alg».proof.Proof.Spec
import Idealize.ShloMosaic.Lib.Pipeline.Value
import Idealize.ShloMosaic.Lib.StableHlo.Run

noncomputable section

namespace Cert.Chamfer.KTail

open Cert.KernelIdeal Cert.KernelIdeal.Gen Cert.Chamfer Idealize.ShloMosaic Idealize.ShloMosaic.TcCoe Idealize.SL.Sem Idealize.ShloMosaic.StableHlo

variable (m : (ℓ : Loc nD τ sig) → Buf (Elt Ideal) ℓ) (ρ : Dev nD → PrngReg)

/-- Contents carried to a buffer's type and back are the contents. -/
theorem ofBuf_toBuf {sg : RefSig} {Val : EltTy → Type} {T : BufTy} (x : TRef sg T) (v : T.Contents Val) :
    x.ofBuf (x.toBuf v) = v := by
  obtain ⟨r, h, p, q⟩ := x
  subst h
  rfl

/-- After the region its output array holds what the proof data say of window 6 after the last point. -/
theorem region_out (c : Dev nD) :
    Pipeline.withArrays (cfgs 0).spec c (V0 m c) (fun w => (dats m 0 c).arrAt w (cfgs 0).N) (Proc.devRef .tc main_call0_v12)
      = (dats m 0 c).arrAt 6 cfg0.N :=
  Pipeline.withArrays_arr spec0 launch0.win.arr_inj c _ _ 6

/-- The result buffer after the lines that follow the region: the tail of the region's output array. -/
theorem result_eq (c : Dev nD) :
    Pipeline.afterTail₀ cfgs (dats m) 0 (V0 m) [hostOps1] c main_v0
      = tail reducesTo_S4x8192_S4_d1 h_S_ reducesTo_S4_S_d0 ((dats m 0 c).arrAt 6 cfg0.N) := by
  unfold Pipeline.afterTail₀
  show StableHlo.after hostOps1 _ (Proc.devRef .tc main_v0) = _
  after_results
  simp only [ofBuf_toBuf]
  exact congrArg (tail reducesTo_S4x8192_S4_d1 h_S_ reducesTo_S4_S_d0) (region_out m c)

/-- Every weakly fair execution of the program terminates with the result buffer at the tail of the region's output
    array and the two arguments as launched. -/
theorem run : θ_run defs (onTc (τ := τ) (main (F := Ideal))) ⟨m, fun _ => 0, ρ⟩ fun r => ∀ c : Dev nD,
      r.2.mem ((c.tc : Thread nD τ).loc main_v0) = tail reducesTo_S4x8192_S4_d1 h_S_ reducesTo_S4_S_d0 ((dats m 0 c).arrAt 6 cfg0.N)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v0 (Pipeline.mem_restRefs_of main_v0 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c)⟩)
    (run_main m ρ)

end Cert.Chamfer.KTail

end
-- ==== Proof.lean ====
/-
  The proof of `Cert.Claim` for the one-directional Chamfer distance of two clouds of 8192 points in three dimensions
  (four batches): the kernel against its reference.

  Both programs compute  (Σ_n Σ_p max (min_q d(n, p, q)) 0) / 4,  where d(n, p, q) is the squared distance of point p of
  the first cloud and point q of the second in batch n. The kernel forms d coordinate by coordinate,
  (x₀ − y₀)² + (x₁ − y₁)² + (x₂ − y₂)², and takes the minimum over q 512 points at a time, carrying a running minimum
  from grid point to grid point; the reference forms d as |x|² + |y|² − 2 x·y and takes one minimum over all 8192 points.
  On the extended reals the two forms of d agree when every entry is a real number — which is what the precondition says —
  and a minimum taken in groups is the minimum over all. The sums over the points and the batches and the division by 4
  are the same operations in both programs, applied to equal arrays.

  The three frame claims are the generated frame certificates (the reference's is its generated run with the result
  dropped); the idealization rewrote nothing, so `preserves` is trivial; `algebraic` joins the kernel's run (its output
  array read off the frame run, then the operations after the grid) with the reference's run at the specification's `nn`.
-/
import proofs.«125190_j11261404250604_2_alg».proof.Defs
import proofs.«125190_j11261404250604_2_alg».proof.Proof.Gen.Kernel
import proofs.«125190_j11261404250604_2_alg».proof.Proof.Gen.Kernel.Frame
import proofs.«125190_j11261404250604_2_alg».proof.Proof.Gen.KernelIdeal
import proofs.«125190_j11261404250604_2_alg».proof.Proof.Gen.KernelIdeal.Frame
import proofs.«125190_j11261404250604_2_alg».proof.Proof.Gen.ReferenceIdeal
import proofs.«125190_j11261404250604_2_alg».proof.Proof.Gen.Pre_finite_inputs
import proofs.«125190_j11261404250604_2_alg».proof.Proof.Gen.ReferenceIdeal.Run
import proofs.«125190_j11261404250604_2_alg».proof.Proof.Gen.ReferenceIdeal.Read
import proofs.«125190_j11261404250604_2_alg».proof.Proof.Spec
import proofs.«125190_j11261404250604_2_alg».proof.Proof.Finite
import proofs.«125190_j11261404250604_2_alg».proof.Proof.RefSide
import proofs.«125190_j11261404250604_2_alg».proof.Proof.KFinal
import proofs.«125190_j11261404250604_2_alg».proof.Proof.KTail
import Idealize.ShloMosaic.Adequacy
import Idealize.ShloMosaic.Init

noncomputable section

namespace Cert.Proof

open Idealize.ShloMosaic Idealize.SL.Sem

/-- At the ideal instance both programs end at the shared sums and division applied to the nearest squared distances:
    the kernel's output array is `nn` of the launched clouds (the running minimum over groups of 512), the reference's
    per-point array is `nn` of clouds that agree with them and hold real numbers only. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hfin := fun c => Cert.Chamfer.Finite.real_of_pre _ _ (hpre c)
  refine ⟨fun c => Cert.Chamfer.tail Cert.KernelIdeal.Facts₀.reducesTo_S4x8192_S4_d1 Cert.KernelIdeal.Facts₀.h_S_
      Cert.KernelIdeal.Facts₀.reducesTo_S4_S_d0 (Cert.Chamfer.nn (Cert.Chamfer.Inv.X m c) (Cert.Chamfer.Inv.Y m c)), ?_, ?_⟩
  · refine (θ_run Cert.KernelIdeal.defs _ _).mono (fun _ h c => ⟨(h c).1.trans ?_, (h c).2⟩) (Cert.Chamfer.KTail.run m ρ)
    rw [Cert.Chamfer.Final.final m c]
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v18_eq, (hagree c).1, (hagree c).2, Cert.Chamfer.RefSide.result_eq,
      Cert.Chamfer.RefSide.perPoint_eq _ _ (hfin c).1 (hfin c).2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    fun m ρ _ => (θ_run Cert.ReferenceIdeal.defs _ _).mono (fun _ h c => (h c).2)
      (Cert.ReferenceIdeal.Value.run (F := Ideal) m ρ),
    trivial,
    algebraic⟩

end Cert.Proof

end
